-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S4096x1024 : Shape := ⟨2, ![4096, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S1x4096, .f32⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S8192x4x1024, .f32⟩
  | .hbm, ⟨8, _⟩ => ⟨S8192x4x1024, .f32⟩
  | .hbm, ⟨9, _⟩ => ⟨S8192x4x1024, .f32⟩
  | .hbm, ⟨10, _⟩ => ⟨S1x4x1024, .f32⟩
  | .hbm, ⟨11, _⟩ => ⟨S8192x4x1024, .f32⟩
  | .hbm, ⟨12, _⟩ => ⟨S8192x4x1024, .f32⟩
  | .hbm, ⟨13, _⟩ => ⟨S1x4x1024, .f32⟩
  | .hbm, ⟨14, _⟩ => ⟨S8192x4x1024, .f32⟩
  | .hbm, ⟨15, _⟩ => ⟨S8192x4x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf

class Facts : Prop extends Facts₀ where

variable [Facts]
-- ==== Proof.CellSpec.lean ====
/-
  One step of an LSTM cell on the extended reals, entry by entry.

  For a batch row b and a hidden unit j, gate g (0 input, 1 forget, 2 candidate, 3 output) has the pre-activation
    z_g(b, j) = sum_k x(b, k) * Wx(g, j, k) + sum_k h(b, k) * Wh(g, j, k) + bx(g, j) + bh(g, j),
  the new cell state is  sigma(z_1) * c + sigma(z_0) * tanh(z_2)  and the new hidden state  sigma(z_3) * tanh(new cell),
  with sigma the logistic function. Two small laws join the two programs' spellings of it: the logistic function is
  1 / (1 + exp(-z)) with the float word of 1 read as the number 1, and a sum of four terms may be bracketed
  (a + b) + (c + d) or ((a + b) + c) + d. Neither needs a finite argument.
-/
import Idealize.ShloMosaic.PureOps.Ideal
import Idealize.ShloMosaic.Lib.ValueIdx

noncomputable section

namespace LstmCell

open Idealize.ShloMosaic Idealize.ShloMosaic.ValueIdx

/-- Batch rows by features (or hidden units): the inputs, the states and the results. -/
abbrev Rows : Shape := ⟨2, ![8192, 1024]⟩
/-- Gate by hidden unit by input feature: a weight stack. -/
abbrev Weights : Shape := ⟨3, ![4, 1024, 1024]⟩
/-- Gate by hidden unit: a bias table. -/
abbrev Biases : Shape := ⟨2, ![4, 1024]⟩

variable (x h c : Rows.Idx → EReal) (Wx Wh : Weights.Idx → EReal) (bx bh : Biases.Idx → EReal)

/-- The pre-activation of gate g at batch row b and hidden unit j. -/
def gate (g : Fin 4) (b : Fin 8192) (j : Fin 1024) : EReal :=
  (∑ k : Fin 1024, x (ix2 b k) * Wx (ix3 g j k)) + (∑ k : Fin 1024, h (ix2 b k) * Wh (ix3 g j k))
    + bx (ix2 g j) + bh (ix2 g j)

/-- The new cell state at (b, j): forget gate times the old state plus input gate times the candidate. -/
def cellAt (b : Fin 8192) (j : Fin 1024) : EReal :=
  Ideal.logistic (gate x h Wx Wh bx bh 1 b j) * c (ix2 b j)
    + Ideal.logistic (gate x h Wx Wh bx bh 0 b j) * Ideal.tanh (gate x h Wx Wh bx bh 2 b j)

/-- The new hidden state at (b, j): output gate times tanh of the new cell state. -/
def hiddenAt (b : Fin 8192) (j : Fin 1024) : EReal :=
  Ideal.logistic (gate x h Wx Wh bx bh 3 b j) * Ideal.tanh (cellAt x h c Wx Wh bx bh b j)

/-- The new cell state as an array. -/
def newCell : Rows.Idx → EReal := fun i => cellAt x h c Wx Wh bx bh (i 0) (i 1)

/-- The new hidden state as an array. -/
def newHidden : Rows.Idx → EReal := fun i => hiddenAt x h c Wx Wh bx bh (i 0) (i 1)

/-- The float word 0x3F800000 is the number 1. -/
theorem one_word : Ideal.ofBits .f32 0x3F800000#32 = 1 := by
  simp [Ideal.ofBits, Ideal.ieee, -EReal.coe_mul]; norm_num

/-- The quotient 1 / (1 + exp(-z)), with both ones spelt as float words, is the logistic function of z. -/
theorem logistic_expansion (z : EReal) :
    Ideal.div (Ideal.ofBits .f32 0x3F800000#32) (Ideal.ofBits .f32 0x3F800000#32 + Ideal.exp (-z))
      = Ideal.logistic z := by
  rw [one_word]; rfl

/-- Four terms bracketed two and two are the four terms added from the left. -/
theorem pair_sum (a b u v : EReal) : a + b + (u + v) = a + b + u + v := (add_assoc (a + b) u v).symm

end LstmCell

end
-- ==== Proof.RefCell.lean ====
/-
  The reference program computes the LSTM cell of CellSpec.lean.

  Its two contractions give, at (b, g, j), the sums over k of x(b, k) * Wx(g, j, k) and of h(b, k) * Wh(g, j, k);
  the two bias tables are repeated over the batch and added one after the other, which is the gate pre-activation
  as CellSpec brackets it. Slicing gate g out of the [batch, gate, unit] stack and dropping the unit axis reads the
  stack at (b, g, j). Each sigmoid is spelt 1 / (1 + exp(-z)), the logistic function; the rest is the cell's own
  arithmetic, in the same order.
-/
import proofs.«139078_j90958817394974_2_alg».proof.Proof.Gen.ReferenceIdeal.Read
import proofs.«139078_j90958817394974_2_alg».proof.Proof.CellSpec

noncomputable section

namespace Cert.ReferenceIdeal.Cell

open Cert.ReferenceIdeal Cert.ReferenceIdeal.Read Idealize.ShloMosaic Idealize.ShloMosaic.ValueIdx LstmCell

variable (x0 x1 x2 : Rows.Idx → EReal) (x3 x4 : Weights.Idx → EReal) (x5 x6 : Biases.Idx → EReal)

/-- The stack of the four gates' pre-activations at batch row b, gate g, unit j. -/
theorem stacked_gates (g : Fin 4) (b : Fin 8192) (j : Fin 1024) :
    val_main_v8 (F := Ideal) x0 x1 x3 x4 x5 x6 (ix3 b g j) = gate x0 x1 x3 x4 x5 x6 g b j := by
  have el0 : ∀ k, lidx_main_v0 (ix3 b g j) k = ix2 b k := fun k => funext fun a => Fin.ext (by
    match a with | ⟨0, _⟩ => rfl | ⟨1, _⟩ => rfl)
  have er0 : ∀ k, ridx_main_v0 (ix3 b g j) k = ix3 g j k := fun k => funext fun a => Fin.ext (by
    match a with | ⟨0, _⟩ => rfl | ⟨1, _⟩ => rfl | ⟨2, _⟩ => rfl)
  have el1 : ∀ k, lidx_main_v1 (ix3 b g j) k = ix2 b k := fun k => funext fun a => Fin.ext (by
    match a with | ⟨0, _⟩ => rfl | ⟨1, _⟩ => rfl)
  have er1 : ∀ k, ridx_main_v1 (ix3 b g j) k = ix3 g j k := fun k => funext fun a => Fin.ext (by
    match a with | ⟨0, _⟩ => rfl | ⟨1, _⟩ => rfl | ⟨2, _⟩ => rfl)
  have e5 : idx_main_v3 (idx_main_v4 (ix3 b g j)) = ix2 g j := funext fun a => Fin.ext (by
    match a with | ⟨0, _⟩ => rfl | ⟨1, _⟩ => rfl)
  have e6 : idx_main_v6 (idx_main_v7 (ix3 b g j)) = ix2 g j := funext fun a => Fin.ext (by
    match a with | ⟨0, _⟩ => rfl | ⟨1, _⟩ => rfl)
  rw [val_main_v8_apply, val_main_v5_apply, val_main_v2_apply, val_main_v0_apply, val_main_v1_apply,
    val_main_v4_apply, val_main_v3_apply, val_main_v7_apply, val_main_v6_apply]
  simp only [el0, er0, el1, er1, e5, e6]
  rfl

/-- Gate 0 (input) sliced out of the stack and flattened to [batch, unit]. -/
theorem gate0 (b : Fin 8192) (j : Fin 1024) :
    val_main_v10 (F := Ideal) x0 x1 x3 x4 x5 x6 (ix2 b j) = gate x0 x1 x3 x4 x5 x6 0 b j := by
  have e : idx_main_v9 (idx_main_v10 (ix2 b j)) = ix3 b (0 : Fin 4) j := funext fun a => Fin.ext (by
    have hj := j.isLt
    match a with
    | ⟨0, _⟩ => show (b.val * 1024 + j.val) / 1024 = b.val; omega
    | ⟨1, _⟩ => rfl
    | ⟨2, _⟩ => show (b.val * 1024 + j.val) % 1024 = j.val; omega)
  rw [val_main_v10_apply, val_main_v9_apply, e]
  exact stacked_gates x0 x1 x3 x4 x5 x6 0 b j

/-- Gate 1 (forget). -/
theorem gate1 (b : Fin 8192) (j : Fin 1024) :
    val_main_v18 (F := Ideal) x0 x1 x3 x4 x5 x6 (ix2 b j) = gate x0 x1 x3 x4 x5 x6 1 b j := by
  have e : idx_main_v17 (idx_main_v18 (ix2 b j)) = ix3 b (1 : Fin 4) j := funext fun a => Fin.ext (by
    have hj := j.isLt
    match a with
    | ⟨0, _⟩ => show (b.val * 1024 + j.val) / 1024 = b.val; omega
    | ⟨1, _⟩ => rfl
    | ⟨2, _⟩ => show (b.val * 1024 + j.val) % 1024 = j.val; omega)
  rw [val_main_v18_apply, val_main_v17_apply, e]
  exact stacked_gates x0 x1 x3 x4 x5 x6 1 b j

/-- Gate 2 (candidate). -/
theorem gate2 (b : Fin 8192) (j : Fin 1024) :
    val_main_v26 (F := Ideal) x0 x1 x3 x4 x5 x6 (ix2 b j) = gate x0 x1 x3 x4 x5 x6 2 b j := by
  have e : idx_main_v25 (idx_main_v26 (ix2 b j)) = ix3 b (2 : Fin 4) j := funext fun a => Fin.ext (by
    have hj := j.isLt
    match a with
    | ⟨0, _⟩ => show (b.val * 1024 + j.val) / 1024 = b.val; omega
    | ⟨1, _⟩ => rfl
    | ⟨2, _⟩ => show (b.val * 1024 + j.val) % 1024 = j.val; omega)
  rw [val_main_v26_apply, val_main_v25_apply, e]
  exact stacked_gates x0 x1 x3 x4 x5 x6 2 b j

/-- Gate 3 (output). -/
theorem gate3 (b : Fin 8192) (j : Fin 1024) :
    val_main_v29 (F := Ideal) x0 x1 x3 x4 x5 x6 (ix2 b j) = gate x0 x1 x3 x4 x5 x6 3 b j := by
  have e : idx_main_v28 (idx_main_v29 (ix2 b j)) = ix3 b (3 : Fin 4) j := funext fun a => Fin.ext (by
    have hj := j.isLt
    match a with
    | ⟨0, _⟩ => show (b.val * 1024 + j.val) / 1024 = b.val; omega
    | ⟨1, _⟩ => rfl
    | ⟨2, _⟩ => show (b.val * 1024 + j.val) % 1024 = j.val; omega)
  rw [val_main_v29_apply, val_main_v28_apply, e]
  exact stacked_gates x0 x1 x3 x4 x5 x6 3 b j

/-- The input gate: 1 / (1 + exp(-z_0)) is the logistic function of z_0. -/
theorem sigma0 (b : Fin 8192) (j : Fin 1024) :
    val_main_v16 (F := Ideal) x0 x1 x3 x4 x5 x6 (ix2 b j) = Ideal.logistic (gate x0 x1 x3 x4 x5 x6 0 b j) := by
  rw [val_main_v16_apply, val_main_v15_apply, val_main_cst_0_apply, val_main_v14_apply, val_main_v13_apply,
    val_main_cst_apply, val_main_v12_apply, val_main_v11_apply, gate0]
  exact logistic_expansion _

/-- The forget gate. -/
theorem sigma1 (b : Fin 8192) (j : Fin 1024) :
    val_main_v24 (F := Ideal) x0 x1 x3 x4 x5 x6 (ix2 b j) = Ideal.logistic (gate x0 x1 x3 x4 x5 x6 1 b j) := by
  rw [val_main_v24_apply, val_main_v23_apply, val_main_cst_2_apply, val_main_v22_apply, val_main_v21_apply,
    val_main_cst_1_apply, val_main_v20_apply, val_main_v19_apply, gate1]
  exact logistic_expansion _

/-- The output gate. -/
theorem sigma3 (b : Fin 8192) (j : Fin 1024) :
    val_main_v35 (F := Ideal) x0 x1 x3 x4 x5 x6 (ix2 b j) = Ideal.logistic (gate x0 x1 x3 x4 x5 x6 3 b j) := by
  rw [val_main_v35_apply, val_main_v34_apply, val_main_cst_4_apply, val_main_v33_apply, val_main_v32_apply,
    val_main_cst_3_apply, val_main_v31_apply, val_main_v30_apply, gate3]
  exact logistic_expansion _

/-- The reference's third result is the new cell state. -/
theorem cell_eq : val_main_v38 (F := Ideal) x0 x1 x2 x3 x4 x5 x6 = newCell x0 x1 x2 x3 x4 x5 x6 := by
  funext i
  obtain ⟨b, j, rfl⟩ : ∃ (b : Fin 8192) (j : Fin 1024), i = ix2 b j := ⟨i 0, i 1, eq_ix2 i⟩
  rw [val_main_v38_apply, val_main_v36_apply, val_main_v37_apply, val_main_v27_apply, sigma1, sigma0, gate2]
  rfl

/-- The reference's first two results are the new hidden state. -/
theorem hidden_eq : val_main_v40 (F := Ideal) x0 x1 x2 x3 x4 x5 x6 = newHidden x0 x1 x2 x3 x4 x5 x6 := by
  funext i
  obtain ⟨b, j, rfl⟩ : ∃ (b : Fin 8192) (j : Fin 1024), i = ix2 b j := ⟨i 0, i 1, eq_ix2 i⟩
  rw [val_main_v40_apply, val_main_v39_apply, sigma3, congrFun (cell_eq x0 x1 x2 x3 x4 x5 x6) (ix2 b j)]
  rfl

end Cert.ReferenceIdeal.Cell

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«139078_j90958817394974_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«139078_j90958817394974_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.GatesTile.lean ====
/-
  The kernel's tile of gate pre-activations, read at an entry.

  For a tile of 256 batch rows the kernel multiplies the rows of x and of h by the 4096 rows of the two folded weight
  matrices (both operands contracted on their last axis, into a zero accumulator), adds the two products, and adds
  the two bias rows summed and repeated down the tile. Rounding the rows to bf16 and recasting a matrix to its own
  shape change nothing on the extended reals. So entry (p, q) is
    sum_k x(p, k) * Wx(q, k) + sum_k h(p, k) * Wh(q, k) + (bx(0, q) + bh(0, q)).
-/
import proofs.«139078_j90958817394974_2_alg».proof.Proof.Gen.KernelIdeal.Skeleton
import proofs.«139078_j90958817394974_2_alg».proof.Proof.LibTransposedRecord
import proofs.«139078_j90958817394974_2_alg».proof.Proof.LibDotRecord
import Idealize.ShloMosaic.Lib.Pipeline.Value

noncomputable section

namespace Cert.KernelIdeal.Cell

open Cert.KernelIdeal Cert.KernelIdeal.Gen Idealize.ShloMosaic Idealize.ShloMosaic.ValueIdx

/-- Entry (p, q) of the gates tile: row p of the x tile against row q of the folded Wx, the same for h and Wh,
    and entry q of the two bias rows. -/
theorem gates_entry (P0 P1 : FVec Ideal S256x1024 .f32) (P2 P3 : FVec Ideal S4096x1024 .bf16)
    (P4 P5 : FVec Ideal S1x4096 .f32) (p : Fin 256) (q : Fin 4096) :
    k0_pay1 (F := Ideal) P0 P1 P2 P3 P4 P5 (ix2 p q)
      = (∑ k : Fin 1024, P0 (ix2 p k) * P2 (ix2 q k)) + (∑ k : Fin 1024, P1 (ix2 p k) * P3 (ix2 q k))
        + (P4 (ix2 0 q) + P5 (ix2 0 q)) := by
  unfold k0_pay1
  rw [shapeCast_self, shapeCast_self, shapeCast_self, shapeCast_self]
  refine (addf_apply _ _ _).trans (congrArg₂ (· + ·) ((addf_apply _ _ _).trans (congrArg₂ (· + ·) ?_ ?_)) ?_)
  · exact TransposedRecord.matmul_zero_apply (M := 256) (K := 1024) (N := 4096) _ rfl rfl rfl rfl rfl rfl _ _ none p q
  · exact TransposedRecord.matmul_zero_apply (M := 256) (K := 1024) (N := 4096) _ rfl rfl rfl rfl rfl rfl _ _ none p q
  · exact (DotRecord.broadcastTo_1b_ab_apply (a := 256) (b := 4096) _ _ p q).trans (addf_apply _ _ _)

end Cert.KernelIdeal.Cell

end
-- ==== Proof.TileCell.lean ====
/-
  One tile of the kernel's outputs is the LSTM cell of CellSpec.lean on that tile's batch rows.

  The kernel's operands at a grid point are tiles: 256 rows of x, h and c; the two weight stacks folded gate-major
  to [4096, 1024], so that folded row g * 1024 + j is row j of gate g; the two bias tables folded the same way to
  one row of 4096 entries. Under those readings (the structure Tile below) the gates tile at column g * 1024 + j
  is gate g's pre-activation at unit j, bracketed (a + b) + (c + d) where CellSpec brackets from the left; and the
  slices at columns 0, 1024, 2048 and 3072 that the body feeds to the sigmoids and to tanh are the four gates.
-/
import proofs.«139078_j90958817394974_2_alg».proof.Proof.Gen.KernelIdeal.Value
import proofs.«139078_j90958817394974_2_alg».proof.Proof.GatesTile
import proofs.«139078_j90958817394974_2_alg».proof.Proof.CellSpec

noncomputable section

namespace Cert.KernelIdeal.Cell

open Cert.KernelIdeal Cert.KernelIdeal.Gen Idealize.ShloMosaic Idealize.ShloMosaic.ValueIdx LstmCell

/-- Row g * 1024 + j of a folded [4096, ·] matrix: row j of gate g. -/
def col (g : Fin 4) (j : Fin 1024) : Fin 4096 := ⟨g.val * 1024 + j.val, by have := g.isLt; have := j.isLt; omega⟩

/-- How a grid point's operand tiles sit in the argument arrays: the tiles of x, h and c hold the batch rows
    row p; the folded weight matrices and bias rows hold the stacks gate-major. -/
structure Tile (x h c : Rows.Idx → EReal) (Wx Wh : Weights.Idx → EReal) (bx bh : Biases.Idx → EReal)
    (row : Fin 256 → Fin 8192) (P0 P1 P6 : FVec Ideal S256x1024 .f32) (P2 P3 : FVec Ideal S4096x1024 .bf16)
    (P4 P5 : FVec Ideal S1x4096 .f32) : Prop where
  inc : ∀ (p : Fin 256) (k : Fin 1024), P0 (ix2 p k) = x (ix2 (row p) k)
  hid : ∀ (p : Fin 256) (k : Fin 1024), P1 (ix2 p k) = h (ix2 (row p) k)
  old : ∀ (p : Fin 256) (j : Fin 1024), P6 (ix2 p j) = c (ix2 (row p) j)
  wx : ∀ (g : Fin 4) (j k : Fin 1024), P2 (ix2 (col g j) k) = Wx (ix3 g j k)
  wh : ∀ (g : Fin 4) (j k : Fin 1024), P3 (ix2 (col g j) k) = Wh (ix3 g j k)
  bx : ∀ (g : Fin 4) (j : Fin 1024), P4 (ix2 0 (col g j)) = bx (ix2 g j)
  bh : ∀ (g : Fin 4) (j : Fin 1024), P5 (ix2 0 (col g j)) = bh (ix2 g j)

variable {x h c : Rows.Idx → EReal} {Wx Wh : Weights.Idx → EReal} {bx bh : Biases.Idx → EReal}
  {row : Fin 256 → Fin 8192} {P0 P1 P6 : FVec Ideal S256x1024 .f32} {P2 P3 : FVec Ideal S4096x1024 .bf16}
  {P4 P5 : FVec Ideal S1x4096 .f32}

/-- The gates tile at (p, g * 1024 + j) is gate g's pre-activation at batch row row p and unit j. -/
theorem tile_gate (T : Tile x h c Wx Wh bx bh row P0 P1 P6 P2 P3 P4 P5) (g : Fin 4) (p : Fin 256) (j : Fin 1024) :
    k0_pay1 (F := Ideal) P0 P1 P2 P3 P4 P5 (ix2 p (col g j)) = gate x h Wx Wh bx bh g (row p) j := by
  have e1 : (∑ k : Fin 1024, P0 (ix2 p k) * P2 (ix2 (col g j) k)) = ∑ k : Fin 1024, x (ix2 (row p) k) * Wx (ix3 g j k) :=
    Finset.sum_congr rfl fun k _ => by rw [T.inc p k, T.wx g j k]
  have e2 : (∑ k : Fin 1024, P1 (ix2 p k) * P3 (ix2 (col g j) k)) = ∑ k : Fin 1024, h (ix2 (row p) k) * Wh (ix3 g j k) :=
    Finset.sum_congr rfl fun k _ => by rw [T.hid p k, T.wh g j k]
  rw [gates_entry, e1, e2, T.bx g j, T.bh g j, pair_sum]
  rfl

/-- The tile stored to the cell-state output, at (p, j), is the new cell state at (row p, j). -/
theorem tile_cell (T : Tile x h c Wx Wh bx bh row P0 P1 P6 P2 P3 P4 P5) (p : Fin 256) (j : Fin 1024) :
    Value.E8 (F := Ideal) P0 P1 P2 P3 P4 P5 P6 (ix2 p j) = cellAt x h c Wx Wh bx bh (row p) j := by
  have hj := j.isLt
  have i0 : Value.ix8_0 (ix2 p j) = ix2 p (col 1 j) := funext fun a => Fin.ext (by
    match a with | ⟨0, _⟩ => rfl | ⟨1, _⟩ => (show j.val + 1024 = 1 * 1024 + j.val; omega))
  have i1 : Value.ix8_1 (ix2 p j) = ix2 p j := funext fun a => Fin.ext (by
    match a with | ⟨0, _⟩ => rfl | ⟨1, _⟩ => rfl)
  have i2 : Value.ix8_2 (ix2 p j) = ix2 p (col 0 j) := funext fun a => Fin.ext (by
    match a with | ⟨0, _⟩ => rfl | ⟨1, _⟩ => (show j.val = 0 * 1024 + j.val; omega))
  have i3 : Value.ix8_3 (ix2 p j) = ix2 p (col 2 j) := funext fun a => Fin.ext (by
    match a with | ⟨0, _⟩ => rfl | ⟨1, _⟩ => (show j.val + 2048 = 2 * 1024 + j.val; omega))
  unfold Value.E8
  rw [i0, i1, i2, i3, tile_gate T 1 p j, tile_gate T 0 p j, tile_gate T 2 p j, T.old p j]
  rfl

/-- The tile stored to the hidden-state output, at (p, j), is the new hidden state at (row p, j). -/
theorem tile_hidden (T : Tile x h c Wx Wh bx bh row P0 P1 P6 P2 P3 P4 P5) (p : Fin 256) (j : Fin 1024) :
    Value.E7 (F := Ideal) P0 P1 P2 P3 P4 P5 P6 (ix2 p j) = hiddenAt x h c Wx Wh bx bh (row p) j := by
  have hj := j.isLt
  have i0 : Value.ix7_0 (ix2 p j) = ix2 p (col 3 j) := funext fun a => Fin.ext (by
    match a with | ⟨0, _⟩ => rfl | ⟨1, _⟩ => (show j.val + 3072 = 3 * 1024 + j.val; omega))
  have i1 : Value.ix7_1 (ix2 p j) = ix2 p (col 1 j) := funext fun a => Fin.ext (by
    match a with | ⟨0, _⟩ => rfl | ⟨1, _⟩ => (show j.val + 1024 = 1 * 1024 + j.val; omega))
  have i2 : Value.ix7_2 (ix2 p j) = ix2 p j := funext fun a => Fin.ext (by
    match a with | ⟨0, _⟩ => rfl | ⟨1, _⟩ => rfl)
  have i3 : Value.ix7_3 (ix2 p j) = ix2 p (col 0 j) := funext fun a => Fin.ext (by
    match a with | ⟨0, _⟩ => rfl | ⟨1, _⟩ => (show j.val = 0 * 1024 + j.val; omega))
  have i4 : Value.ix7_4 (ix2 p j) = ix2 p (col 2 j) := funext fun a => Fin.ext (by
    match a with | ⟨0, _⟩ => rfl | ⟨1, _⟩ => (show j.val + 2048 = 2 * 1024 + j.val; omega))
  unfold Value.E7
  rw [i0, i1, i2, i3, i4, tile_gate T 3 p j, tile_gate T 1 p j, tile_gate T 0 p j, tile_gate T 2 p j, T.old p j]
  rfl

end Cert.KernelIdeal.Cell

end
-- ==== Proof.OperandTiles.lean ====
/-
  How a grid point's operand tiles sit in the argument arrays.

  The grid has 32 points; point t works on batch rows 256 t … 256 t + 255. The windows of x, h and c (and of the two
  results) move with t along the batch axis and not along the feature axis; the windows of the folded weights and
  biases are the whole arrays at every point. Before the kernel runs, each weight stack [4, 1024, 1024] is folded
  to [4096, 1024] (row-major, so folded row g * 1024 + j is row j of gate g) and rounded to bf16, which changes
  nothing on the extended reals, and each bias table [4, 1024] is folded to one row [1, 4096] the same way. Read at
  an entry, the seven operand tiles are therefore the entries of the seven arguments that the record Tile asks for.
-/
import proofs.«139078_j90958817394974_2_alg».proof.Proof.Gen.KernelIdeal.Value
import proofs.«139078_j90958817394974_2_alg».proof.Proof.TileCell
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Cell

open Cert.KernelIdeal Cert.KernelIdeal.Gen Cert.KernelIdeal.Value Idealize.ShloMosaic Idealize.ShloMosaic.TcCoe
  Idealize.SL.Sem Idealize.ShloMosaic.ValueIdx LstmCell
open Idealize.ShloMosaic.Pipeline (Dat)

variable (m : (ℓ : Loc nD τ sig) → Buf (Elt Ideal) ℓ)

/-- The printed index maps, decided over the 32 grid points: the tiles of x, h, c and of both results sit at block
    (t, 0); the folded weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The batch row that row p of point t's tiles holds. -/
def rowAt (t : Fin cfg0.N) (p : Fin 256) : Fin 8192 :=
  ⟨t.val * 256 + p.val, by have := t.isLt; have hN : cfg0.N = 32 := N_0; have := p.isLt; omega⟩

/-! ## The folds, read at an entry -/

/-- A [4, 1024, 1024] stack folded to [4096, 1024]: folded row g * 1024 + j is row j of gate g. -/
theorem fold_stack_apply {α : Type} (W : S4x1024x1024.Idx → α) (hc : S4x1024x1024.ShapeCasts S4096x1024)
    (g : Fin 4) (j k : Fin 1024) : shapeCast S4096x1024 W hc (ix2 (col g j) k) = W (ix3 g j k) :=
  shapeCast_apply W hc (ix2 (col g j) k) (ix3 g j k) (by
    rewrite [Shape.rowMajor_val_three, Shape.rowMajor_val_two]
    show (g.val * 1024 + j.val) * 1024 + k.val = (g.val * 1024 + j.val) * 1024 + k.val
    rfl)

/-- A [4, 1024] table folded to one row [1, 4096]: entry g * 1024 + j is entry j of gate g. -/
theorem fold_table_apply {α : Type} (B : S4x1024.Idx → α) (hc : S4x1024.ShapeCasts S1x4096)
    (g : Fin 4) (j : Fin 1024) : shapeCast S1x4096 B hc (ix2 (0 : Fin 1) (col g j)) = B (ix2 g j) :=
  shapeCast_apply B hc (ix2 (0 : Fin 1) (col g j)) (ix2 g j) (by
    rewrite [Shape.rowMajor_val_two, Shape.rowMajor_val_two]
    show g.val * 1024 + j.val = 0 * 4096 + (g.val * 1024 + j.val)
    omega)

/-! ## The arrays the host operations wrote before the kernel runs -/

/-- The folded Wx as the kernel finds it. -/
theorem folded_wx (c : Dev nD) : (V m c main_v1 : S4096x1024.Idx → Elt Ideal .bf16)
    = truncf (F := Ideal) .bf16 (shapeCast S4096x1024 (m ((c : Thread nD τ).loc main_arg3)) shapeCasts_S4x1024x1024_S4096x1024) bitsLt_bf16_f32 := by
  dsimp only [Gen.V, Gen.hostOps0]; after_results; rfl

/-- The folded Wh as the kernel finds it. -/
theorem folded_wh (c : Dev nD) : (V m c main_v3 : S4096x1024.Idx → Elt Ideal .bf16)
    = truncf (F := Ideal) .bf16 (shapeCast S4096x1024 (m ((c : Thread nD τ).loc main_arg4)) shapeCasts_S4x1024x1024_S4096x1024) bitsLt_bf16_f32 := by
  dsimp only [Gen.V, Gen.hostOps0]; after_results; rfl

/-- The folded bx as the kernel finds it. -/
theorem folded_bx (c : Dev nD) : (V m c main_v4 : S1x4096.Idx → Elt Ideal .f32)
    = shapeCast S1x4096 (m ((c : Thread nD τ).loc main_arg5)) shapeCasts_S4x1024_S1x4096 := by
  dsimp only [Gen.V, Gen.hostOps0]; after_results; rfl

/-- The folded bh as the kernel finds it. -/
theorem folded_bh (c : Dev nD) : (V m c main_v5 : S1x4096.Idx → Elt Ideal .f32)
    = shapeCast S1x4096 (m ((c : Thread nD τ).loc main_arg6)) shapeCasts_S4x1024_S1x4096 := by
  dsimp only [Gen.V, Gen.hostOps0]; after_results; rfl

/-! ## The seven operand tiles at a grid point -/

/-- The x tile: rows 256 t … of x. -/
theorem x_tile (c : Dev nD) (t : Fin cfg0.N) (p : Fin 256) (k : Fin 1024) :
    (iblk m c 0 t : Vec Ideal S256x1024 .f32) (ix2 p k)
      = ((m ((c : Thread nD τ).loc main_arg0)) : S8192x1024.Idx → Elt Ideal .f32) (ix2 (rowAt t p) k) := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t 0 * 256 + 1 * p.val = t.val * 256 + p.val; rw [e0]; omega
  | ⟨1, _⟩ => show win0_0.index t 1 * 1024 + 1 * k.val = k.val; rw [e1]; omega

/-- The h tile: rows 256 t … of h. -/
theorem h_tile (c : Dev nD) (t : Fin cfg0.N) (p : Fin 256) (k : Fin 1024) :
    (iblk m c 1 t : Vec Ideal S256x1024 .f32) (ix2 p k)
      = ((m ((c : Thread nD τ).loc main_arg1)) : S8192x1024.Idx → Elt Ideal .f32) (ix2 (rowAt t p) k) := by
  obtain ⟨-, -, e0, e1, -⟩ := idx_facts t
  unfold iblk
  rw [View.read_apply]
  show V m c main_arg1 _ = _
  rw [V_main_arg1]
  congr 1
  funext a; apply Fin.ext
  match a with
  | ⟨0, _⟩ => show win0_1.index t 0 * 256 + 1 * p.val = t.val * 256 + p.val; rw [e0]; omega
  | ⟨1, _⟩ => show win0_1.index t 1 * 1024 + 1 * k.val = k.val; rw [e1]; omega

/-- The c tile: rows 256 t … of c. -/
theorem c_tile (c : Dev nD) (t : Fin cfg0.N) (p : Fin 256) (k : Fin 1024) :
    (iblk m c 2 t : Vec Ideal S256x1024 .f32) (ix2 p k)
      = ((m ((c : Thread nD τ).loc main_arg2)) : S8192x1024.Idx → Elt Ideal .f32) (ix2 (rowAt t p) k) := by
  obtain ⟨-, -, -, -, e0, e1, -⟩ := idx_facts t
  unfold iblk
  rw [View.read_apply]
  show V m c main_arg2 _ = _
  rw [V_main_arg2]
  congr 1
  funext a; apply Fin.ext
  match a with
  | ⟨0, _⟩ => show win0_2.index t 0 * 256 + 1 * p.val = t.val * 256 + p.val; rw [e0]; omega
  | ⟨1, _⟩ => show win0_2.index t 1 * 1024 + 1 * k.val = k.val; rw [e1]; omega

/-- The Wx operand is the whole folded array at every point. -/
theorem wx_whole (c : Dev nD) (t : Fin cfg0.N) (q : Fin 4096) (k : Fin 1024) :
    (iblk m c 3 t : Vec Ideal S4096x1024 .bf16) (ix2 q k) = (V m c main_v1 : S4096x1024.Idx → Elt Ideal .bf16) (ix2 q k) := by
  obtain ⟨-, -, -, -, -, -, e0, e1, -⟩ := idx_facts t
  unfold iblk
  rw [View.read_apply]
  show V m c main_v1 _ = _
  congr 1
  funext a; apply Fin.ext
  match a with
  | ⟨0, _⟩ => show win0_3.index t 0 * 4096 + 1 * q.val = q.val; rw [e0]; omega
  | ⟨1, _⟩ => show win0_3.index t 1 * 1024 + 1 * k.val = k.val; rw [e1]; omega

/-- The Wh operand is the whole folded array at every point. -/
theorem wh_whole (c : Dev nD) (t : Fin cfg0.N) (q : Fin 4096) (k : Fin 1024) :
    (iblk m c 4 t : Vec Ideal S4096x1024 .bf16) (ix2 q k) = (V m c main_v3 : S4096x1024.Idx → Elt Ideal .bf16) (ix2 q k) := by
  obtain ⟨-, -, -, -, -, -, -, -, e0, e1, -⟩ := idx_facts t
  unfold iblk
  rw [View.read_apply]
  show V m c main_v3 _ = _
  congr 1
  funext a; apply Fin.ext
  match a with
  | ⟨0, _⟩ => show win0_4.index t 0 * 4096 + 1 * q.val = q.val; rw [e0]; omega
  | ⟨1, _⟩ => show win0_4.index t 1 * 1024 + 1 * k.val = k.val; rw [e1]; omega

/-- The bx operand is the whole folded row at every point. -/
theorem bx_whole (c : Dev nD) (t : Fin cfg0.N) (q : Fin 4096) :
    (iblk m c 5 t : Vec Ideal S1x4096 .f32) (ix2 (0 : Fin 1) q) = (V m c main_v4 : S1x4096.Idx → Elt Ideal .f32) (ix2 (0 : Fin 1) q) := by
  obtain ⟨-, -, -, -, -, -, -, -, -, -, e0, e1, -⟩ := idx_facts t
  unfold iblk
  rw [View.read_apply]
  show V m c main_v4 _ = _
  congr 1
  funext a; apply Fin.ext
  match a with
  | ⟨0, _⟩ => show win0_5.index t 0 * 1 + 1 * 0 = 0; rw [e0]
  | ⟨1, _⟩ => show win0_5.index t 1 * 4096 + 1 * q.val = q.val; rw [e1]; omega

/-- The bh operand is the whole folded row at every point. -/
theorem bh_whole (c : Dev nD) (t : Fin cfg0.N) (q : Fin 4096) :
    (iblk m c 6 t : Vec Ideal S1x4096 .f32) (ix2 (0 : Fin 1) q) = (V m c main_v5 : S1x4096.Idx → Elt Ideal .f32) (ix2 (0 : Fin 1) q) := by
  obtain ⟨-, -, -, -, -, -, -, -, -, -, -, -, e0, e1, -⟩ := idx_facts t
  unfold iblk
  rw [View.read_apply]
  show V m c main_v5 _ = _
  congr 1
  funext a; apply Fin.ext
  match a with
  | ⟨0, _⟩ => show win0_6.index t 0 * 1 + 1 * 0 = 0; rw [e0]
  | ⟨1, _⟩ => show win0_6.index t 1 * 4096 + 1 * q.val = q.val; rw [e1]; omega

/-- The operand tiles of point t are the tiles CellSpec's cell is computed from, on batch rows rowAt t. -/
theorem tile_at (c : Dev nD) (t : Fin cfg0.N) :
    Tile (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (rowAt t) (iblk m c 0 t) (iblk m c 1 t) (iblk m c 2 t) (iblk m c 3 t) (iblk m c 4 t) (iblk m c 5 t) (iblk m c 6 t) where
  inc p k := x_tile m c t p k
  hid p k := h_tile m c t p k
  old p j := c_tile m c t p j
  wx g j k := (wx_whole m c t (col g j) k).trans ((congrFun (folded_wx m c) _).trans (fold_stack_apply _ _ g j k))
  wh g j k := (wh_whole m c t (col g j) k).trans ((congrFun (folded_wh m c) _).trans (fold_stack_apply _ _ g j k))
  bx g j := (bx_whole m c t (col g j)).trans ((congrFun (folded_bx m c) _).trans (fold_table_apply _ _ g j))
  bh g j := (bh_whole m c t (col g j)).trans ((congrFun (folded_bh m c) _).trans (fold_table_apply _ _ g j))

end Cert.KernelIdeal.Cell

end
-- ==== Proof.CellRun.lean ====
/-
  The kernel's run: both result arrays end holding the LSTM cell of CellSpec.lean.

  At grid point t the body leaves in each result window's buffer one tile, 256 rows by 1024 units, which is the cell
  computed from that point's operand tiles (TileCell.lean, OperandTiles.lean); written back, it is rows
  256 t … 256 t + 255 of the result. Row r of a result lies in the block of point r / 256, so the 32 blocks cover
  the array and it ends holding the cell at every entry.
-/
import proofs.«139078_j90958817394974_2_alg».proof.Proof.Gen.KernelIdeal.Value
import proofs.«139078_j90958817394974_2_alg».proof.Proof.OperandTiles
import Idealize.ShloMosaic.Lib.Pipeline.Value

noncomputable section

namespace Cert.KernelIdeal.Cell

open Cert.KernelIdeal Cert.KernelIdeal.Gen Cert.KernelIdeal.Value Idealize.ShloMosaic Idealize.ShloMosaic.TcCoe
  Idealize.SL.Sem Idealize.ShloMosaic.ValueIdx LstmCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Both result windows sit at block (t, 0) at point t. -/
theorem out_idx (t : Fin cfg0.N) : win0_7.index t (0 : Fin 2) = t.val ∧ win0_7.index t (1 : Fin 2) = 0
    ∧ win0_8.index t (0 : Fin 2) = t.val ∧ win0_8.index t (1 : Fin 2) = 0 := by
  obtain ⟨-, -, -, -, -, -, -, -, -, -, -, -, -, -, h⟩ := idx_facts t
  exact h

/-! ## What the body leaves, over any operand tiles -/

variable {x h c' : Rows.Idx → EReal} {Wx Wh : Weights.Idx → EReal} {bx bh : Biases.Idx → EReal}
  {row : Fin 256 → Fin 8192}

/-- The hidden-state window's buffer after the body, at (p, j). -/
theorem out_hidden (X0 X1 X2 : FVec Ideal S256x1024 .f32) (X3 X4 : FVec Ideal S4096x1024 .bf16)
    (X5 X6 : FVec Ideal S1x4096 .f32) (T : Tile x h c' Wx Wh bx bh row X0 X1 X2 X3 X4 X5 X6) (p : Fin 256) (j : Fin 1024) :
    out0_7 (F := Ideal) X0 X1 X2 X3 X4 X5 X6 (ix2 p j) = hiddenAt x h c' Wx Wh bx bh (row p) j := by
  unfold out0_7
  simp only [View.ld_unit_zero (S := S256x1024) hz, View.ld_unit_zero (S := S4096x1024) hz,
    View.ld_unit_zero (S := S1x4096) hz]
  rw [Value.canon7_eq]
  exact tile_hidden T p j

/-- The cell-state window's buffer after the body, at (p, j). -/
theorem out_cell (X0 X1 X2 : FVec Ideal S256x1024 .f32) (X3 X4 : FVec Ideal S4096x1024 .bf16)
    (X5 X6 : FVec Ideal S1x4096 .f32) (T : Tile x h c' Wx Wh bx bh row X0 X1 X2 X3 X4 X5 X6) (p : Fin 256) (j : Fin 1024) :
    out0_8 (F := Ideal) X0 X1 X2 X3 X4 X5 X6 (ix2 p j) = cellAt x h c' Wx Wh bx bh (row p) j := by
  unfold out0_8
  simp only [View.ld_unit_zero (S := S256x1024) hz, View.ld_unit_zero (S := S4096x1024) hz,
    View.ld_unit_zero (S := S1x4096) hz]
  rw [Value.canon8_eq]
  exact tile_cell T p j

/-! ## What point t writes back -/

/-- Entry (p, j) of point t's hidden-state block is entry (256 t + p, j) of the array. -/
theorem emb_hidden (t : Fin cfg0.N) (p : Fin 256) (j : Fin 1024) :
    (((cfg0.win 7).blk t).view.emb (ix2 p j) : S8192x1024.Idx) = ix2 (rowAt t p) j := by
  obtain ⟨e0, e1, -⟩ := out_idx t
  funext a; apply Fin.ext
  match a with
  | ⟨0, _⟩ => show win0_7.index t 0 * 256 + 1 * p.val = t.val * 256 + p.val; rw [e0]; omega
  | ⟨1, _⟩ => show win0_7.index t 1 * 1024 + 1 * j.val = j.val; rw [e1]; omega

/-- Entry (p, j) of point t's cell-state block is entry (256 t + p, j) of the array. -/
theorem emb_cell (t : Fin cfg0.N) (p : Fin 256) (j : Fin 1024) :
    (((cfg0.win 8).blk t).view.emb (ix2 p j) : S8192x1024.Idx) = ix2 (rowAt t p) j := by
  obtain ⟨-, -, e0, e1⟩ := out_idx t
  funext a; apply Fin.ext
  match a with
  | ⟨0, _⟩ => show win0_8.index t 0 * 256 + 1 * p.val = t.val * 256 + p.val; rw [e0]; omega
  | ⟨1, _⟩ => show win0_8.index t 1 * 1024 + 1 * j.val = j.val; rw [e1]; omega

/-- Point t writes back block t of the new hidden state. -/
theorem flushed_hidden (c : Dev nD) (t : Fin cfg0.N) :
    (dats m 0 c).flushed 7 t = ((cfg0.win 7).blk t).view.read (Elt Ideal) (newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  refine funext fun (y : S256x1024.Idx) => ?_
  obtain ⟨p, j, rfl⟩ : ∃ (p : Fin 256) (j : Fin 1024), y = ix2 p j := ⟨y 0, y 1, eq_ix2 y⟩
  rw [View.read_apply]
  show out0_7 (iblk m c 0 t) (iblk m c 1 t) (iblk m c 2 t) (iblk m c 3 t) (iblk m c 4 t) (iblk m c 5 t) (iblk m c 6 t) (ix2 p j)
      = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p j))
  rw [emb_hidden t p j]
  exact out_hidden (iblk m c 0 t) (iblk m c 1 t) (iblk m c 2 t) (iblk m c 3 t) (iblk m c 4 t) (iblk m c 5 t) (iblk m c 6 t) (tile_at m c t) p j

/-- Point t writes back block t of the new cell state. -/
theorem flushed_cell (c : Dev nD) (t : Fin cfg0.N) :
    (dats m 0 c).flushed 8 t = ((cfg0.win 8).blk t).view.read (Elt Ideal) (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  refine funext fun (y : S256x1024.Idx) => ?_
  obtain ⟨p, j, rfl⟩ : ∃ (p : Fin 256) (j : Fin 1024), y = ix2 p j := ⟨y 0, y 1, eq_ix2 y⟩
  rw [View.read_apply]
  show out0_8 (iblk m c 0 t) (iblk m c 1 t) (iblk m c 2 t) (iblk m c 3 t) (iblk m c 4 t) (iblk m c 5 t) (iblk m c 6 t) (ix2 p j)
      = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 p j))
  rw [emb_cell t p j]
  exact out_cell (iblk m c 0 t) (iblk m c 1 t) (iblk m c 2 t) (iblk m c 3 t) (iblk m c 4 t) (iblk m c 5 t) (iblk m c 6 t) (tile_at m c t) p j

/-! ## The blocks cover the arrays -/

/-- An index is in point t's hidden-state block iff each coordinate is in the block's range on its axis. -/
theorem mem_hidden_blk (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v6_0).slice (win0_7.rect t)).set ↔ _
  rw [View.set_slice_whole, Rect.mem_set_unit]
  exact Iff.rfl

/-- The same for the cell-state block. -/
theorem mem_cell_blk (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v6_1).slice (win0_8.rect t)).set ↔ _
  rw [View.set_slice_whole, Rect.mem_set_unit]
  exact Iff.rfl

/-- Row r of the hidden-state array is in the block of point r / 256. -/
theorem hidden_covered (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨e0, e1, -⟩ := out_idx t
  refine ⟨t, flush0_7 t, ?_⟩
  rw [mem_hidden_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- Row r of the cell-state array is in the block of point r / 256. -/
theorem cell_covered (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, e0, e1⟩ := out_idx t
  refine ⟨t, flush0_8 t, ?_⟩
  rw [mem_cell_blk]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-! ## The arrays after the run -/

/-- The first result array ends holding the new hidden state. -/
theorem final_hidden (c : Dev nD) : (dats m 0 c).arrAt 7 cfg0.N = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_hidden m c t) hidden_covered

/-- The second result array ends holding the new cell state. -/
theorem final_cell (c : Dev nD) : (dats m 0 c).arrAt 8 cfg0.N = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_cell m c t) cell_covered

/-- The kernel's run: the two result arrays at the cell of the argument arrays, the arguments unchanged. -/
theorem run : θ_run defs (onTc (τ := τ) (main (F := Ideal))) ⟨m, fun _ => 0, ρ⟩ fun r => ∀ c : Dev nD,
      r.2.mem ((c : Thread nD τ).loc main_v6_0) = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v6_1) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.Cell

end
-- ==== Proof.lean ====
/-
  One step of an LSTM cell: a Pallas kernel against its jnp reference, equal on the extended reals.

  Both programs take a batch of inputs x and states h, c (8192 rows of 1024), two weight stacks Wx, Wh (four gates of
  1024 by 1024) and two bias tables bx, bh (four gates of 1024), and return (h', h', c') with
    z_g = x Wx_g^T + h Wh_g^T + bx_g + bh_g,   c' = sigma(z_1) c + sigma(z_0) tanh(z_2),   h' = sigma(z_3) tanh(c').
  The reference contracts x and h against the stacks as they are and slices the four gates out of a
  [batch, gate, unit] array. The kernel folds the stacks and tables gate-major into [4096, 1024] matrices and
  [1, 4096] rows, rounds its matrix operands to bf16 (the identity on the extended reals), and works through the batch
  in 32 tiles of 256 rows: two matrix products into zero accumulators, the two bias rows added to each other first,
  four column slices, the sigmoids as one operation. Entry by entry both are CellSpec.lean's cell: RefCell.lean for the
  reference, TileCell.lean / OperandTiles.lean / CellRun.lean for the kernel. The laws used are associativity of the
  sum and the expansion of the logistic function; neither needs finite inputs, so the precondition is never opened.
  No operation of the kernel is rewritten when it is read on the extended reals, so that conjunct is trivial; the
  three frames are the generated ones.
-/
import proofs.«139078_j90958817394974_2_alg».proof.Defs
import proofs.«139078_j90958817394974_2_alg».proof.Proof.Gen.Kernel
import proofs.«139078_j90958817394974_2_alg».proof.Proof.Gen.Kernel.Skeleton
import proofs.«139078_j90958817394974_2_alg».proof.Proof.Gen.Kernel.Launch
import proofs.«139078_j90958817394974_2_alg».proof.Proof.Gen.Kernel.Points
import proofs.«139078_j90958817394974_2_alg».proof.Proof.Gen.Kernel.Frame
import proofs.«139078_j90958817394974_2_alg».proof.Proof.Gen.KernelIdeal
import proofs.«139078_j90958817394974_2_alg».proof.Proof.Gen.KernelIdeal.Skeleton
import proofs.«139078_j90958817394974_2_alg».proof.Proof.Gen.KernelIdeal.Launch
import proofs.«139078_j90958817394974_2_alg».proof.Proof.Gen.KernelIdeal.Points
import proofs.«139078_j90958817394974_2_alg».proof.Proof.Gen.KernelIdeal.Frame
import proofs.«139078_j90958817394974_2_alg».proof.Proof.Gen.ReferenceIdeal
import proofs.«139078_j90958817394974_2_alg».proof.Proof.Gen.Pre_finite_inputs
import proofs.«139078_j90958817394974_2_alg».proof.Proof.Gen.KernelIdeal.Value
import proofs.«139078_j90958817394974_2_alg».proof.Proof.Gen.ReferenceIdeal.Run
import proofs.«139078_j90958817394974_2_alg».proof.Proof.Gen.ReferenceIdeal.Read
import proofs.«139078_j90958817394974_2_alg».proof.Proof.RefCell
import proofs.«139078_j90958817394974_2_alg».proof.Proof.CellRun
import Idealize.ShloMosaic.Adequacy
import Idealize.ShloMosaic.Init

noncomputable section

namespace Cert.Proof

open Idealize.ShloMosaic Idealize.SL.Sem LstmCell

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with the results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation of the kernel is rewritten when it is read on the extended reals. -/
theorem preserves : Cert.preserves_Kernel_KernelIdeal := trivial

/-- From memories that agree on the seven arguments, both programs end with (h', h', c') of CellSpec's cell. -/
theorem algebraic : Cert.algebraic_KernelIdeal_ReferenceIdeal := by
  intro m ρ m' ρ' _ hagree
  refine ⟨fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1, (h c).1, (h c).2⟩)
      (Cert.KernelIdeal.Cell.run m ρ)
  · refine (θ_run Cert.ReferenceIdeal.defs _ _).mono (fun _ h c => ?_)
      (Cert.ReferenceIdeal.Value.run (F := Ideal) m' ρ')
    obtain ⟨h40, -, h38, hargs⟩ := h c
    obtain ⟨a0, a1, a2, a3, a4, a5, a6⟩ := hagree c
    have e40 := h40.trans (Cert.ReferenceIdeal.Read.val_main_v40_eq m' c)
    rw [Cert.ReferenceIdeal.Cell.hidden_eq, a0, a1, a2, a3, a4, a5, a6] at e40
    rw [Cert.ReferenceIdeal.Read.val_main_v38_eq, Cert.ReferenceIdeal.Cell.cell_eq, a0, a1, a2, a3, a4, a5, a6] at h38
    exact ⟨e40, e40, h38, hargs⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
